-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2x16x1024x64 : Shape := ⟨5, ![2, 2, 16, 1024, 64]⟩
abbrev S_ : Shape := ⟨0, ![]⟩

class Facts : Prop where
  bcast_S_S2x2x16x1024x64 : S_.BroadcastsInDim S2x2x16x1024x64 (![] : Fin 0 → Fin S2x2x16x1024x64.rank)
  reducesTo_S2x2x16x1024x64_S_d0_1_2_3_4 : S2x2x16x1024x64.ReducesTo [0, 1, 2, 3, 4] S_
  h_S_ : 0 < S_.numel

variable [Facts]

def fn {F : FTy → Type} [FloatOps F] (main_arg0 : FVec F S2x2x16x1024x64 .f32) (main_arg1 : FVec F S2x2x16x1024x64 .f32) (main_arg2 : FVec F S2x2x16x1024x64 .f32) : IVec S_ 1 :=
  let main_v0 : FVec F S2x2x16x1024x64 .f32 := Host.absf main_arg0
  let main_cst : FVec F S_ .f32 := constant S_ .f32 0x7F800000#32
  let main_v1 : FVec F S2x2x16x1024x64 .f32 := broadcastInDim S2x2x16x1024x64 ![] bcast_S_S2x2x16x1024x64 main_cst
  let main_v2 : IVec S2x2x16x1024x64 1 := cmpf .olt main_v0 main_v1
  let main_c : IVec S_ 1 := constantI S_ 1 1#1
  let main_v3 : IVec S_ 1 := (fun x v => Host.reduce IntOp.andi x v reducesTo_S2x2x16x1024x64_S_d0_1_2_3_4 h_S_) main_v2 main_c
  let main_v4 : FVec F S2x2x16x1024x64 .f32 := Host.absf main_arg1
  let main_cst_0 : FVec F S_ .f32 := constant S_ .f32 0x7F800000#32
  let main_v5 : FVec F S2x2x16x1024x64 .f32 := broadcastInDim S2x2x16x1024x64 ![] bcast_S_S2x2x16x1024x64 main_cst_0
  let main_v6 : IVec S2x2x16x1024x64 1 := cmpf .olt main_v4 main_v5
  let main_c_1 : IVec S_ 1 := constantI S_ 1 1#1
  let main_v7 : IVec S_ 1 := (fun x v => Host.reduce IntOp.andi x v reducesTo_S2x2x16x1024x64_S_d0_1_2_3_4 h_S_) main_v6 main_c_1
  let main_v8 : IVec S_ 1 := andi main_v3 main_v7
  let main_v9 : FVec F S2x2x16x1024x64 .f32 := Host.absf main_arg2
  let main_cst_2 : FVec F S_ .f32 := constant S_ .f32 0x7F800000#32
  let main_v10 : FVec F S2x2x16x1024x64 .f32 := broadcastInDim S2x2x16x1024x64 ![] bcast_S_S2x2x16x1024x64 main_cst_2
  let main_v11 : IVec S2x2x16x1024x64 1 := cmpf .olt main_v9 main_v10
  let main_c_3 : IVec S_ 1 := constantI S_ 1 1#1
  let main_v12 : IVec S_ 1 := (fun x v => Host.reduce IntOp.andi x v reducesTo_S2x2x16x1024x64_S_d0_1_2_3_4 h_S_) main_v11 main_c_3
  let main_v13 : IVec S_ 1 := andi main_v8 main_v12
  main_v13
-- ==== Kernel.lean ====
abbrev S2x2x16x1024x64 : Shape := ⟨5, ![2, 2, 16, 1024, 64]⟩
abbrev S64x1024x64 : Shape := ⟨3, ![64, 1024, 64]⟩
abbrev S64x1024x1024 : Shape := ⟨3, ![64, 1024, 1024]⟩
abbrev S1x512x64 : Shape := ⟨3, ![1, 512, 64]⟩
abbrev S1x1024x64 : Shape := ⟨3, ![1, 1024, 64]⟩
abbrev S1x512x1024 : Shape := ⟨3, ![1, 512, 1024]⟩
abbrev S512x64 : Shape := ⟨2, ![512, 64]⟩
abbrev S1024x64 : Shape := ⟨2, ![1024, 64]⟩
abbrev S64x1024 : Shape := ⟨2, ![64, 1024]⟩
abbrev S512x1024 : Shape := ⟨2, ![512, 1024]⟩
abbrev S512 : Shape := ⟨1, ![512]⟩
abbrev S512x1 : Shape := ⟨2, ![512, 1]⟩
abbrev S2x2x16x1024x1024 : Shape := ⟨5, ![2, 2, 16, 1024, 1024]⟩

abbrev nBuf : Space → Nat
  | .hbm => 12
  | .vmem => 12
  | .smem => 0
  | _ => 0

abbrev bufTy : (tb : Table) → Fin (tcTables nBuf tb) → BufTy
  | .hbm, ⟨0, _⟩ => ⟨S2x2x16x1024x64, .f32⟩
  | .hbm, ⟨1, _⟩ => ⟨S2x2x16x1024x64, .f32⟩
  | .hbm, ⟨2, _⟩ => ⟨S2x2x16x1024x64, .f32⟩
  | .hbm, ⟨3, _⟩ => ⟨S64x1024x64, .f32⟩
  | .hbm, ⟨4, _⟩ => ⟨S64x1024x64, .f32⟩
  | .hbm, ⟨5, _⟩ => ⟨S64x1024x64, .f32⟩
  | .hbm, ⟨6, _⟩ => ⟨S64x1024x64, .f32⟩
  | .hbm, ⟨7, _⟩ => ⟨S64x1024x1024, .f32⟩
  | .hbm, ⟨8, _⟩ => ⟨S64x1024x1024, .f32⟩
  | .hbm, ⟨9, _⟩ => ⟨S2x2x16x1024x64, .f32⟩
  | .hbm, ⟨10, _⟩ => ⟨S2x2x16x1024x1024, .f32⟩
  | .hbm, ⟨11, _⟩ => ⟨S2x2x16x1024x1024, .f32⟩
  | .local _ .vmem, ⟨0, _⟩ => ⟨S1x512x64, .f32⟩
  | .local _ .vmem, ⟨1, _⟩ => ⟨S1x512x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x512x64, .f32⟩
  | .local _ .vmem, ⟨7, _⟩ => ⟨S1x512x64, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | _, _ => ⟨S2x2x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x2x16x1024x64_S64x1024x64 : S2x2x16x1024x64.ShapeCasts S64x1024x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  reduces_S512x1024_S512 : S512x1024.Reduces [1] S512
  shapeCasts_S512_S512x1 : S512.ShapeCasts S512x1
  broadcasts_S512x1_S512x1024 : S512x1.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S512x64_S1x512x64 : S512x64.ShapeCasts S1x512x64
  shapeCasts_S64x1024x64_S2x2x16x1024x64 : S64x1024x64.ShapeCasts S2x2x16x1024x64
  shapeCasts_S64x1024x1024_S2x2x16x1024x1024 : S64x1024x1024.ShapeCasts S2x2x16x1024x1024
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x1024x64.size a
  hwx0_0 : ∀ i : grid0.Coords, EltTy.bits .f32 = 32 ∨ (Rect.block (s := S64x1024x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x1024x64.size a
  hwx0_3 : ∀ i : grid0.Coords, EltTy.bits .f32 = 32 ∨ (Rect.block (s := S64x1024x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S64x1024x1024.size a
  hwx0_4 : ∀ i : grid0.Coords, EltTy.bits .f32 = 32 ∨ (Rect.block (s := S64x1024x1024) S1x512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S64x1024x1024.size a
  hwx0_5 : ∀ i : grid0.Coords, EltTy.bits .f32 = 32 ∨ (Rect.block (s := S64x1024x1024) S1x512x1024.size (cc0_transform_5 i) (hinb0_5 i)).WholeWords (EltTy.packing .f32)

variable [Facts₀]

def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2x16x1024x64 : Shape := ⟨5, ![2, 2, 16, 1024, 64]⟩
abbrev S2x2x16x1024x1024 : Shape := ⟨5, ![2, 2, 16, 1024, 1024]⟩
abbrev S_ : Shape := ⟨0, ![]⟩
abbrev S2x2x16x1024 : Shape := ⟨4, ![2, 2, 16, 1024]⟩
abbrev S2x2x16x1024x1 : Shape := ⟨5, ![2, 2, 16, 1024, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x2x16x1024x64, .f32⟩
  | .hbm, ⟨1, _⟩ => ⟨S2x2x16x1024x64, .f32⟩
  | .hbm, ⟨2, _⟩ => ⟨S2x2x16x1024x64, .f32⟩
  | .hbm, ⟨3, _⟩ => ⟨S2x2x16x1024x1024, .f32⟩
  | .hbm, ⟨4, _⟩ => ⟨S_, .f32⟩
  | .hbm, ⟨5, _⟩ => ⟨S2x2x16x1024x1024, .f32⟩
  | .hbm, ⟨6, _⟩ => ⟨S2x2x16x1024x1024, .f32⟩
  | .hbm, ⟨7, _⟩ => ⟨S_, .f32⟩
  | .hbm, ⟨8, _⟩ => ⟨S2x2x16x1024, .f32⟩
  | .hbm, ⟨9, _⟩ => ⟨S_, .f32⟩
  | .hbm, ⟨10, _⟩ => ⟨S2x2x16x1024, .f32⟩
  | .hbm, ⟨11, _⟩ => ⟨S2x2x16x1024, .f32⟩
  | .hbm, ⟨12, _⟩ => ⟨S2x2x16x1024x1, .f32⟩
  | .hbm, ⟨13, _⟩ => ⟨S2x2x16x1024x1024, .f32⟩
  | .hbm, ⟨14, _⟩ => ⟨S2x2x16x1024x1024, .f32⟩
  | .hbm, ⟨15, _⟩ => ⟨S2x2x16x1024x1024, .f32⟩
  | .hbm, ⟨16, _⟩ => ⟨S_, .f32⟩
  | .hbm, ⟨17, _⟩ => ⟨S2x2x16x1024, .f32⟩
  | .hbm, ⟨18, _⟩ => ⟨S2x2x16x1024x1, .f32⟩
  | .hbm, ⟨19, _⟩ => ⟨S2x2x16x1024x1024, .f32⟩
  | .hbm, ⟨20, _⟩ => ⟨S2x2x16x1024x1024, .f32⟩
  | .hbm, ⟨21, _⟩ => ⟨S2x2x16x1024x64, .f32⟩
  | _, _ => ⟨S2x2x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x2x16x1024x1024 : S_.BroadcastsInDim S2x2x16x1024x1024 (![] : Fin 0 → Fin S2x2x16x1024x1024.rank)
  reducesTo_S2x2x16x1024x1024_S2x2x16x1024_d4 : S2x2x16x1024x1024.ReducesTo [4] S2x2x16x1024
  h_S_ : 0 < S_.numel
  bcast_S_S2x2x16x1024 : S_.BroadcastsInDim S2x2x16x1024 (![] : Fin 0 → Fin S2x2x16x1024.rank)
  bcast_S2x2x16x1024_S2x2x16x1024x1_0_1_2_3 : S2x2x16x1024.BroadcastsInDim S2x2x16x1024x1 (![0, 1, 2, 3] : Fin 4 → Fin S2x2x16x1024x1.rank)
  bcast_S2x2x16x1024x1_S2x2x16x1024x1024_0_1_2_3_4 : S2x2x16x1024x1.BroadcastsInDim S2x2x16x1024x1024 (![0, 1, 2, 3, 4] : Fin 5 → Fin S2x2x16x1024x1024.rank)
  dot_S2x2x16x1024x64_S2x2x16x1024x64_S2x2x16x1024x1024_4_4_3_3_012_012_wf : DotDims.WF S2x2x16x1024x64 S2x2x16x1024x64 S2x2x16x1024x1024 [4] [4] [3] [3] [0, 1, 2] [0, 1, 2]
  dot_S2x2x16x1024x1024_S2x2x16x1024x64_S2x2x16x1024x64_4_3_3_4_012_012_wf : DotDims.WF S2x2x16x1024x1024 S2x2x16x1024x64 S2x2x16x1024x64 [4] [3] [3] [4] [0, 1, 2] [0, 1, 2]

variable [Facts₀]

def dot_S2x2x16x1024x64_S2x2x16x1024x64_S2x2x16x1024x1024_4_4_3_3_012_012 : DotDims S2x2x16x1024x64 S2x2x16x1024x64 S2x2x16x1024x1024 where
  lhsContracting := [4]
  rhsContracting := [4]
  lhsNonContracting := [3]
  rhsNonContracting := [3]
  lhsBatch := [0, 1, 2]
  rhsBatch := [0, 1, 2]
  wf := dot_S2x2x16x1024x64_S2x2x16x1024x64_S2x2x16x1024x1024_4_4_3_3_012_012_wf
def dot_S2x2x16x1024x1024_S2x2x16x1024x64_S2x2x16x1024x64_4_3_3_4_012_012 : DotDims S2x2x16x1024x1024 S2x2x16x1024x64 S2x2x16x1024x64 where
  lhsContracting := [4]
  rhsContracting := [3]
  lhsNonContracting := [3]
  rhsNonContracting := [4]
  lhsBatch := [0, 1, 2]
  rhsBatch := [0, 1, 2]
  wf := dot_S2x2x16x1024x1024_S2x2x16x1024x64_S2x2x16x1024x64_4_3_3_4_012_012_wf

class Facts : Prop extends Facts₀ where

variable [Facts]
-- ==== Proof.Spec.lean ====
/-
  Scaled dot-product attention with a softmax, one query row at a time, on the extended reals.

  For a query row `qr : Fin 64 → EReal`, a key matrix `K` and a value matrix `V` (1024 rows of width 64):
    score c   = (Σ_d qr d · K c d) · 1/8            (the width is 64, so 1/√64 = 1/8: an exact dyadic)
    rowMax    = the maximum of the scores, folded from −∞
    weight c  = exp (score c − rowMax)
    mass      = Σ_c weight c
    prob c    = weight c / mass
    context d = Σ_c prob c · V c d
  A row of the result depends on its own query row and on the whole key and value matrices of its head, and on nothing else,
  so the three result arrays are these row functions read at the row's coordinates: once over arrays indexed
  (head, row, column) with 64 heads, once over arrays indexed (t, b, h, row, column) with 2·2·16 heads.
-/
import Idealize.ShloMosaic.PureOps.Ideal
import Idealize.ShloMosaic.Lib.ValueIdx

noncomputable section

open scoped BigOperators

namespace Cert.Attention

open Idealize.ShloMosaic Idealize.ShloMosaic.ValueIdx

/-- The scale, as the float word of 0.125. -/
abbrev eighth : EReal := Ideal.ofBits .f32 0x3E000000#32
/-- The maximum's starting value, the float word of −∞. -/
abbrev negInf : EReal := Ideal.ofBits .f32 0xFF800000#32

/-- A query row's scaled inner product with key row `c`. -/
def score (qr : Fin 64 → EReal) (K : Fin 1024 → Fin 64 → EReal) (c : Fin 1024) : EReal :=
  (∑ d : Fin 64, qr d * K c d) * eighth

/-- The largest score of the row. -/
def rowMax (qr : Fin 64 → EReal) (K : Fin 1024 → Fin 64 → EReal) : EReal :=
  (Finset.univ : Finset (Fin 1024)).fold max negInf (score qr K)

/-- The unnormalised softmax weight of key `c`. -/
def weight (qr : Fin 64 → EReal) (K : Fin 1024 → Fin 64 → EReal) (c : Fin 1024) : EReal :=
  Ideal.exp (score qr K c - rowMax qr K)

/-- The row's total weight. -/
def mass (qr : Fin 64 → EReal) (K : Fin 1024 → Fin 64 → EReal) : EReal :=
  ∑ c : Fin 1024, weight qr K c

/-- The softmax probability of key `c`. -/
def prob (qr : Fin 64 → EReal) (K : Fin 1024 → Fin 64 → EReal) (c : Fin 1024) : EReal :=
  Ideal.div (weight qr K c) (mass qr K)

/-- The probability-weighted sum of the value rows, at coordinate `d`. -/
def context (qr : Fin 64 → EReal) (K V : Fin 1024 → Fin 64 → EReal) (d : Fin 64) : EReal :=
  ∑ c : Fin 1024, prob qr K c * V c d

/-! ## Arrays indexed (head, row, column) -/

/-- Row `n` of head `l`. -/
def row3 (x : (⟨3, ![64, 1024, 64]⟩ : Shape).Idx → EReal) (l : Fin 64) (n : Fin 1024) : Fin 64 → EReal :=
  fun d => x (ix3 l n d)
/-- The matrix of head `l`. -/
def mat3 (x : (⟨3, ![64, 1024, 64]⟩ : Shape).Idx → EReal) (l : Fin 64) : Fin 1024 → Fin 64 → EReal :=
  fun c d => x (ix3 l c d)

def scores3 (q k : (⟨3, ![64, 1024, 64]⟩ : Shape).Idx → EReal) : (⟨3, ![64, 1024, 1024]⟩ : Shape).Idx → EReal :=
  fun j => score (row3 q (j 0) (j 1)) (mat3 k (j 0)) (j 2)
def probs3 (q k : (⟨3, ![64, 1024, 64]⟩ : Shape).Idx → EReal) : (⟨3, ![64, 1024, 1024]⟩ : Shape).Idx → EReal :=
  fun j => prob (row3 q (j 0) (j 1)) (mat3 k (j 0)) (j 2)
def context3 (q k v : (⟨3, ![64, 1024, 64]⟩ : Shape).Idx → EReal) : (⟨3, ![64, 1024, 64]⟩ : Shape).Idx → EReal :=
  fun j => context (row3 q (j 0) (j 1)) (mat3 k (j 0)) (mat3 v (j 0)) (j 2)

/-! ## Arrays indexed (t, b, h, row, column) -/

/-- Row `n` of head `(t, b, h)`. -/
def row5 (x : (⟨5, ![2, 2, 16, 1024, 64]⟩ : Shape).Idx → EReal) (t : Fin 2) (b : Fin 2) (h : Fin 16) (n : Fin 1024) :
    Fin 64 → EReal :=
  fun d => x (ix5 t b h n d)
/-- The matrix of head `(t, b, h)`. -/
def mat5 (x : (⟨5, ![2, 2, 16, 1024, 64]⟩ : Shape).Idx → EReal) (t : Fin 2) (b : Fin 2) (h : Fin 16) :
    Fin 1024 → Fin 64 → EReal :=
  fun c d => x (ix5 t b h c d)

def scores5 (q k : (⟨5, ![2, 2, 16, 1024, 64]⟩ : Shape).Idx → EReal) :
    (⟨5, ![2, 2, 16, 1024, 1024]⟩ : Shape).Idx → EReal :=
  fun i => score (row5 q (i 0) (i 1) (i 2) (i 3)) (mat5 k (i 0) (i 1) (i 2)) (i 4)
def probs5 (q k : (⟨5, ![2, 2, 16, 1024, 64]⟩ : Shape).Idx → EReal) :
    (⟨5, ![2, 2, 16, 1024, 1024]⟩ : Shape).Idx → EReal :=
  fun i => prob (row5 q (i 0) (i 1) (i 2) (i 3)) (mat5 k (i 0) (i 1) (i 2)) (i 4)
def context5 (q k v : (⟨5, ![2, 2, 16, 1024, 64]⟩ : Shape).Idx → EReal) :
    (⟨5, ![2, 2, 16, 1024, 64]⟩ : Shape).Idx → EReal :=
  fun i => context (row5 q (i 0) (i 1) (i 2) (i 3)) (mat5 k (i 0) (i 1) (i 2)) (mat5 v (i 0) (i 1) (i 2)) (i 4)

end Cert.Attention

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Body.lean ====
/-
  What one run of the kernel body stores, read entry by entry. The body sees 512 query rows of one head and the head's
  whole key and value matrices. Row r of what it stores into the score block is the scaled scores of query row r; into
  the probability block, the softmax of that row; into the context block, the probabilities' weighted sum of the value rows.
  The conversions to a shorter float format are the identity on the extended reals; a matrix product into a zero accumulator
  is the plain sum of products; the transposed key matrix read at (d, c) is the key matrix at (c, d); a row maximum or
  row sum kept as a column and laid along the row reads, at (r, c), the row's maximum or sum.
-/
import proofs.«147482_j65816078844473_2_alg».proof.Proof.Gen.KernelIdeal.Skeleton
import proofs.«147482_j65816078844473_2_alg».proof.Proof.Spec
import proofs.«147482_j65816078844473_2_alg».proof.Proof.LibKeepdims
import Idealize.ShloMosaic.Lib.ValueIdx
import Idealize.ShloMosaic.Lib.ValueLayout
import Idealize.ShloMosaic.PureOps.Ideal.Laws

noncomputable section

namespace Cert.Attention.Body

open Cert.KernelIdeal Cert.KernelIdeal.Gen Cert.Attention Cert.Keepdims
open Idealize.ShloMosaic Idealize.ShloMosaic.ValueIdx

/-! ## The two matrix products at an index -/

theorem qk_lhs0 (i : S512x1024.Idx) (q : dot_S512x64_S64x1024_S512x1024_1_0_0_1_n_n.contr.Idx) : (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem qk_lhs1 (i : S512x1024.Idx) (q : dot_S512x64_S64x1024_S512x1024_1_0_0_1_n_n.contr.Idx) : (dot_S512x64_S64x1024_S512x1024_1_0_0_1_n_n.lhsIdx i q 1).val = (q ⟨0, by decide⟩).val :=
  dot_S512x64_S64x1024_S512x1024_1_0_0_1_n_n.lhsIdx_val_of_single rfl i q
theorem qk_rhs0 (i : S512x1024.Idx) (q : dot_S512x64_S64x1024_S512x1024_1_0_0_1_n_n.contr.Idx) : (dot_S512x64_S64x1024_S512x1024_1_0_0_1_n_n.rhsIdx i q 0).val = (q ⟨0, by decide⟩).val :=
  dot_S512x64_S64x1024_S512x1024_1_0_0_1_n_n.rhsIdx_val_of_single rfl i q
theorem qk_rhs1 (i : S512x1024.Idx) (q : dot_S512x64_S64x1024_S512x1024_1_0_0_1_n_n.contr.Idx) : (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- Queries times transposed keys into zero: entry (r, c) is Σ_k L(r, k) · R(k, c). -/
theorem qk_apply (L : FVec Ideal S512x64 .bf16) (R : FVec Ideal S64x1024 .bf16) (r : Fin 512) (c : Fin 1024) :
    matmul dot_S512x64_S64x1024_S512x1024_1_0_0_1_n_n none L R (constant (F := Ideal) S512x1024 .f32 0x00000000#32) (ix2 r c)
      = ∑ k : Fin 64, L (ix2 r k) * R (ix2 k c) := by
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 r c) ((contrEquiv1 dot_S512x64_S64x1024_S512x1024_1_0_0_1_n_n 64 rfl rfl).symm k) = ix2 r k := funext fun a => Fin.ext (by
    match a with
    | ⟨0, _⟩ => exact qk_lhs0 _ _
    | ⟨1, _⟩ => exact (qk_lhs1 _ _).trans hk)
  have er : dot_S512x64_S64x1024_S512x1024_1_0_0_1_n_n.rhsIdx (ix2 r c) ((contrEquiv1 dot_S512x64_S64x1024_S512x1024_1_0_0_1_n_n 64 rfl rfl).symm k) = ix2 k c := funext fun a => Fin.ext (by
    match a with
    | ⟨0, _⟩ => exact (qk_rhs0 _ _).trans hk
    | ⟨1, _⟩ => exact qk_rhs1 _ _)
  rw [el, er]

theorem pv_lhs0 (i : S512x64.Idx) (q : dot_S512x1024_S1024x64_S512x64_1_0_0_1_n_n.contr.Idx) : (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem pv_lhs1 (i : S512x64.Idx) (q : dot_S512x1024_S1024x64_S512x64_1_0_0_1_n_n.contr.Idx) : (dot_S512x1024_S1024x64_S512x64_1_0_0_1_n_n.lhsIdx i q 1).val = (q ⟨0, by decide⟩).val :=
  dot_S512x1024_S1024x64_S512x64_1_0_0_1_n_n.lhsIdx_val_of_single rfl i q
theorem pv_rhs0 (i : S512x64.Idx) (q : dot_S512x1024_S1024x64_S512x64_1_0_0_1_n_n.contr.Idx) : (dot_S512x1024_S1024x64_S512x64_1_0_0_1_n_n.rhsIdx i q 0).val = (q ⟨0, by decide⟩).val :=
  dot_S512x1024_S1024x64_S512x64_1_0_0_1_n_n.rhsIdx_val_of_single rfl i q
theorem pv_rhs1 (i : S512x64.Idx) (q : dot_S512x1024_S1024x64_S512x64_1_0_0_1_n_n.contr.Idx) : (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- Probabilities times values into zero: entry (r, d) is Σ_k L(r, k) · R(k, d). -/
theorem pv_apply (L : FVec Ideal S512x1024 .bf16) (R : FVec Ideal S1024x64 .bf16) (r : Fin 512) (d : Fin 64) :
    matmul dot_S512x1024_S1024x64_S512x64_1_0_0_1_n_n none L R (constant (F := Ideal) S512x64 .f32 0x00000000#32) (ix2 r d)
      = ∑ k : Fin 1024, L (ix2 r k) * R (ix2 k d) := by
  simp only [matmul]
  rw [Ideal.matmul_constant_zero_apply, ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 r d) ((contrEquiv1 dot_S512x1024_S1024x64_S512x64_1_0_0_1_n_n 1024 rfl rfl).symm k) = ix2 r k := funext fun a => Fin.ext (by
    match a with
    | ⟨0, _⟩ => exact pv_lhs0 _ _
    | ⟨1, _⟩ => exact (pv_lhs1 _ _).trans hk)
  have er : dot_S512x1024_S1024x64_S512x64_1_0_0_1_n_n.rhsIdx (ix2 r d) ((contrEquiv1 dot_S512x1024_S1024x64_S512x64_1_0_0_1_n_n 1024 rfl rfl).symm k) = ix2 k d := funext fun a => Fin.ext (by
    match a with
    | ⟨0, _⟩ => exact (pv_rhs0 _ _).trans hk
    | ⟨1, _⟩ => exact pv_rhs1 _ _)
  rw [el, er]

/-! ## The row reductions at an index -/

/-- A row maximum from −∞: the fold of max over the row. -/
theorem rowmax_apply (src : FVec Ideal S512x1024 .f32) (hacc : (0xFF800000#32 : BitVec 32) = 0xFF800000#32) (r : Fin 512) :
    multiReduction .maximumf [1] S512 src 0xFF800000#32 reduces_S512x1024_S512 (.inl rfl) hacc (ix1 r)
      = (Finset.univ : Finset (Fin 1024)).fold max negInf (fun c => src (ix2 r c)) := by
  refine (Ideal.multiReduction_maximumf_single src 0xFF800000#32 reduces_S512x1024_S512 (.inl rfl) hacc (ix1 r)).trans ?_
  have e : (src ∘ reduces_S512x1024_S512.lift (ix1 r)) = fun c : Fin 1024 => src (ix2 r c) :=
    funext fun c => congrArg src (funext fun a => Fin.ext (by match a with | ⟨0, _⟩ => rfl | ⟨1, _⟩ => rfl))
  rw [e]
  rfl

/-- A row sum from 0: the sum over the row. -/
theorem rowsum_apply (src : FVec Ideal S512x1024 .f32) (hacc : (0x00000000#32 : BitVec 32) = 0x00000000#32) (r : Fin 512) :
    multiReduction .add [1] S512 src 0x00000000#32 reduces_S512x1024_S512 (.inl rfl) hacc (ix1 r)
      = ∑ c : Fin 1024, src (ix2 r c) := by
  refine (Ideal.multiReduction_add_single src 0x00000000#32 reduces_S512x1024_S512 (.inl rfl) hacc (ix1 r)).trans ?_
  exact Finset.sum_congr rfl fun c _ => congrArg src (funext fun a => Fin.ext (by match a with | ⟨0, _⟩ => rfl | ⟨1, _⟩ => rfl))

/-! ## The stored values -/

variable (x0 : Vec Ideal S1x512x64 .f32) (x1 x2 : Vec Ideal S1x1024x64 .f32)

/-- Query row `r` of the block. -/
def qrow (r : Fin 512) : Fin 64 → EReal := fun d => x0 (ix3 (0 : Fin 1) r d)
/-- The block's key (or value) matrix. -/
def kmat (x : Vec Ideal S1x1024x64 .f32) : Fin 1024 → Fin 64 → EReal := fun c d => x (ix3 (0 : Fin 1) c d)

/-- The scaled scores. -/
theorem pay1_apply (r : Fin 512) (c : Fin 1024) :
    k0_pay1 (F := Ideal) x0 x1 (ix2 r c) = score (qrow x0 r) (kmat x1) c := by
  unfold k0_pay1 score
  dsimp only
  rw [mulf_apply, broadcast_apply, qk_apply]
  refine congrArg₂ (· * ·) (Finset.sum_congr rfl fun k _ => ?_) rfl
  rw [truncf_apply, shapeCast_1ab_ab_apply, transpose_ix2_apply, truncf_apply, shapeCast_1ab_ab_apply]
  rfl

/-- The weights of the block: the exponential of the scores less their row maximum. -/
def wvec : FVec Ideal S512x1024 .f32 :=
  exp (subf (k0_pay1 (F := Ideal) x0 x1) (broadcastTo S512x1024 (shapeCast S512x1
    (multiReduction (F := Ideal) .maximumf [1] S512 (k0_pay1 (F := Ideal) x0 x1) 0xFF800000#32 reduces_S512x1024_S512 (.inl rfl) rfl)
    shapeCasts_S512_S512x1) broadcasts_S512x1_S512x1024))

theorem wvec_apply (r : Fin 512) (c : Fin 1024) : wvec x0 x1 (ix2 r c) = weight (qrow x0 r) (kmat x1) c := by
  show Ideal.exp (k0_pay1 (F := Ideal) x0 x1 (ix2 r c) - broadcastTo S512x1024 _ broadcasts_S512x1_S512x1024 (ix2 r c)) = _
  rw [broadcastTo_a1_ab_apply, shapeCast_a_a1_apply, rowmax_apply]
  simp only [pay1_apply]
  rfl

/-- The probabilities are the weights over their row sums. -/
theorem pay2_eq : k0_pay2 (F := Ideal) x0 x1 = divf (wvec x0 x1) (broadcastTo S512x1024 (shapeCast S512x1
    (multiReduction (F := Ideal) .add [1] S512 (wvec x0 x1) 0x00000000#32 reduces_S512x1024_S512 (.inl rfl) rfl)
    shapeCasts_S512_S512x1) broadcasts_S512x1_S512x1024) := rfl

theorem pay2_apply (r : Fin 512) (c : Fin 1024) :
    k0_pay2 (F := Ideal) x0 x1 (ix2 r c) = prob (qrow x0 r) (kmat x1) c := by
  rw [pay2_eq, divf_apply, broadcastTo_a1_ab_apply, shapeCast_a_a1_apply, rowsum_apply]
  simp only [wvec_apply]
  rfl

/-- What is stored into the score block. -/
theorem pay3_apply (u : Fin 1) (r : Fin 512) (c : Fin 1024) :
    k0_pay3 (F := Ideal) x0 x1 (ix3 u r c) = score (qrow x0 r) (kmat x1) c := by
  unfold k0_pay3
  rw [shapeCast_ab_1ab_apply, pay1_apply]

/-- What is stored into the probability block. -/
theorem pay4_apply (u : Fin 1) (r : Fin 512) (c : Fin 1024) :
    k0_pay4 (F := Ideal) x0 x1 (ix3 u r c) = prob (qrow x0 r) (kmat x1) c := by
  unfold k0_pay4
  rw [shapeCast_ab_1ab_apply, pay2_apply]

/-- What is stored into the context block. -/
theorem pay5_apply (u : Fin 1) (r : Fin 512) (d : Fin 64) :
    k0_pay5 (F := Ideal) x0 x1 x2 (ix3 u r d) = context (qrow x0 r) (kmat x1) (kmat x2) d := by
  unfold k0_pay5 context
  rw [shapeCast_ab_1ab_apply, pv_apply]
  refine Finset.sum_congr rfl fun k _ => ?_
  rw [truncf_apply, pay2_apply, truncf_apply, shapeCast_1ab_ab_apply]
  rfl

end Cert.Attention.Body

end
-- ==== Proof.Blocks.lean ====
/-
  From blocks to arrays. The grid has 128 points; point t works on head t / 2 and on rows (t mod 2)·512 … +511 of it. Its
  query block is those rows of the head's queries, its key and value blocks are the head's whole matrices, and each of its
  three output blocks is those rows of the head in the output array. So what point t writes back is the block of ONE
  function of the three input arrays — the attention arrays of the specification — and the 128 blocks cover each output
  array: the arrays end holding those functions.
-/
import proofs.«147482_j65816078844473_2_alg».proof.Proof.Gen.KernelIdeal.Frame
import proofs.«147482_j65816078844473_2_alg».proof.Proof.Body
import Idealize.ShloMosaic.Lib.Pipeline.Value

noncomputable section

namespace Cert.Attention.Blocks

open Cert.KernelIdeal Cert.KernelIdeal.Gen Cert.Attention Cert.Attention.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The six index maps over the grid: the head is t / 2 for every window; the row block is t mod 2 for the queries and
    the three outputs and 0 for the keys and values; the column block is always 0. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = t.val % 2 ∧ win0_4.index t (2 : Fin 3) = 0
    ∧ win0_5.index t (0 : Fin 3) = t.val / 2 ∧ win0_5.index t (1 : Fin 3) = t.val % 2 ∧ win0_5.index t (2 : Fin 3) = 0 :=
  (by decide +kernel : ∀ t : Fin grid0.N, _)

/-! ## The input blocks -/

/-- A query row of point t's block is a row of its head in the query array. -/
theorem q_rows (c : Dev nD) (t : Fin cfg0.N) (r : Fin 512) (l : Fin 64) (n : Fin 1024)
    (hl : l.val = t.val / 2) (hn : n.val = t.val % 2 * 512 + r.val) :
    qrow (iblk m c 0 t) r = row3 (V m c main_v0) l n := by
  obtain ⟨i00, i01, i02, -⟩ := idx_facts t
  funext d
  have he : ((cfg0.win 0).blk t).view.emb (ix3 (0 : Fin 1) r d) = ix3 l n d := by
    funext a
    apply Fin.ext
    match a with
    | ⟨0, _⟩ => show win0_0.index t (0 : Fin 3) * 1 + 1 * 0 = l.val; omega
    | ⟨1, _⟩ => show win0_0.index t (1 : Fin 3) * 512 + 1 * r.val = n.val; omega
    | ⟨2, _⟩ => show win0_0.index t (2 : Fin 3) * 64 + 1 * d.val = d.val; omega
  show V m c main_v0 (((cfg0.win 0).blk t).view.emb (ix3 (0 : Fin 1) r d)) = V m c main_v0 (ix3 l n d)
  rw [he]

/-- Point t's key block is its head's whole key matrix. -/
theorem k_rows (c : Dev nD) (t : Fin cfg0.N) (l : Fin 64) (hl : l.val = t.val / 2) :
    kmat (iblk m c 1 t) = mat3 (V m c main_v1) l := by
  obtain ⟨-, -, -, i10, i11, i12, -⟩ := idx_facts t
  funext k d
  have he : ((cfg0.win 1).blk t).view.emb (ix3 (0 : Fin 1) k d) = ix3 l k d := by
    funext a
    apply Fin.ext
    match a with
    | ⟨0, _⟩ => show win0_1.index t (0 : Fin 3) * 1 + 1 * 0 = l.val; omega
    | ⟨1, _⟩ => show win0_1.index t (1 : Fin 3) * 1024 + 1 * k.val = k.val; omega
    | ⟨2, _⟩ => show win0_1.index t (2 : Fin 3) * 64 + 1 * d.val = d.val; omega
  show V m c main_v1 (((cfg0.win 1).blk t).view.emb (ix3 (0 : Fin 1) k d)) = V m c main_v1 (ix3 l k d)
  rw [he]

/-- Point t's value block is its head's whole value matrix. -/
theorem v_rows (c : Dev nD) (t : Fin cfg0.N) (l : Fin 64) (hl : l.val = t.val / 2) :
    kmat (iblk m c 2 t) = mat3 (V m c main_v2) l := by
  obtain ⟨-, -, -, -, -, -, i20, i21, i22, -⟩ := idx_facts t
  funext k d
  have he : ((cfg0.win 2).blk t).view.emb (ix3 (0 : Fin 1) k d) = ix3 l k d := by
    funext a
    apply Fin.ext
    match a with
    | ⟨0, _⟩ => show win0_2.index t (0 : Fin 3) * 1 + 1 * 0 = l.val; omega
    | ⟨1, _⟩ => show win0_2.index t (1 : Fin 3) * 1024 + 1 * k.val = k.val; omega
    | ⟨2, _⟩ => show win0_2.index t (2 : Fin 3) * 64 + 1 * d.val = d.val; omega
  show V m c main_v2 (((cfg0.win 2).blk t).view.emb (ix3 (0 : Fin 1) k d)) = V m c main_v2 (ix3 l k d)
  rw [he]

/-! ## The output blocks: where they lie, and that they cover -/

/-- A point's block of output 3: rows (t mod 2)·512 … of head t / 2, every column. -/
theorem emb3 (t : Fin cfg0.N) (u : Fin 1) (r : Fin 512) (e : Fin 64) (l : Fin 64) (n : Fin 1024)
    (hl : l.val = t.val / 2) (hn : n.val = t.val % 2 * 512 + r.val) :
    ((cfg0.win 3).blk t).view.emb (ix3 u r e) = ix3 l n e := by
  obtain ⟨-, -, -, -, -, -, -, -, -, o30, o31, o32, o40, o41, o42, o50, o51, o52⟩ := idx_facts t
  funext a
  apply Fin.ext
  match a with
  | ⟨0, _⟩ => show win0_3.index t (0 : Fin 3) * 1 + 1 * u.val = l.val; have := u.isLt; omega
  | ⟨1, _⟩ => show win0_3.index t (1 : Fin 3) * 512 + 1 * r.val = n.val; omega
  | ⟨2, _⟩ => show win0_3.index t (2 : Fin 3) * 64 + 1 * e.val = e.val; omega

theorem mem_blk3 (t : Fin cfg0.N) (i : S64x1024x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v3_0).slice (win0_3.rect t)).set ↔ _
  rw [View.set_slice_whole, Rect.mem_set_unit]
  exact Iff.rfl

/-- Every entry of output 3 lies in the block of the point (its head, its half of the rows). -/
theorem cover3 (i : S64x1024x64.Idx) : ∃ t : Fin cfg0.N, (cfg0.win 3).flush t = true ∧ i ∈ ((cfg0.win 3).blk t).view.set := by
  have h0 : (i 0).val < 64 := (i 0).isLt
  have h1 : (i 1).val < 1024 := (i 1).isLt
  have h2 : (i 2).val < 64 := (i 2).isLt
  obtain ⟨t, tv⟩ : ∃ t : Fin cfg0.N, t.val = (i 0).val * 2 + (i 1).val / 512 :=
    ⟨⟨(i 0).val * 2 + (i 1).val / 512, lt_of_lt_of_eq (by omega : (i 0).val * 2 + (i 1).val / 512 < 128) N_0.symm⟩, rfl⟩
  obtain ⟨-, -, -, -, -, -, -, -, -, o30, o31, o32, o40, o41, o42, o50, o51, o52⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- A point's block of output 4: rows (t mod 2)·512 … of head t / 2, every column. -/
theorem emb4 (t : Fin cfg0.N) (u : Fin 1) (r : Fin 512) (e : Fin 1024) (l : Fin 64) (n : Fin 1024)
    (hl : l.val = t.val / 2) (hn : n.val = t.val % 2 * 512 + r.val) :
    ((cfg0.win 4).blk t).view.emb (ix3 u r e) = ix3 l n e := by
  obtain ⟨-, -, -, -, -, -, -, -, -, o30, o31, o32, o40, o41, o42, o50, o51, o52⟩ := idx_facts t
  funext a
  apply Fin.ext
  match a with
  | ⟨0, _⟩ => show win0_4.index t (0 : Fin 3) * 1 + 1 * u.val = l.val; have := u.isLt; omega
  | ⟨1, _⟩ => show win0_4.index t (1 : Fin 3) * 512 + 1 * r.val = n.val; omega
  | ⟨2, _⟩ => show win0_4.index t (2 : Fin 3) * 1024 + 1 * e.val = e.val; omega

theorem mem_blk4 (t : Fin cfg0.N) (i : S64x1024x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v3_1).slice (win0_4.rect t)).set ↔ _
  rw [View.set_slice_whole, Rect.mem_set_unit]
  exact Iff.rfl

/-- Every entry of output 4 lies in the block of the point (its head, its half of the rows). -/
theorem cover4 (i : S64x1024x1024.Idx) : ∃ t : Fin cfg0.N, (cfg0.win 4).flush t = true ∧ i ∈ ((cfg0.win 4).blk t).view.set := by
  have h0 : (i 0).val < 64 := (i 0).isLt
  have h1 : (i 1).val < 1024 := (i 1).isLt
  have h2 : (i 2).val < 1024 := (i 2).isLt
  obtain ⟨t, tv⟩ : ∃ t : Fin cfg0.N, t.val = (i 0).val * 2 + (i 1).val / 512 :=
    ⟨⟨(i 0).val * 2 + (i 1).val / 512, lt_of_lt_of_eq (by omega : (i 0).val * 2 + (i 1).val / 512 < 128) N_0.symm⟩, rfl⟩
  obtain ⟨-, -, -, -, -, -, -, -, -, o30, o31, o32, o40, o41, o42, o50, o51, o52⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- A point's block of output 5: rows (t mod 2)·512 … of head t / 2, every column. -/
theorem emb5 (t : Fin cfg0.N) (u : Fin 1) (r : Fin 512) (e : Fin 1024) (l : Fin 64) (n : Fin 1024)
    (hl : l.val = t.val / 2) (hn : n.val = t.val % 2 * 512 + r.val) :
    ((cfg0.win 5).blk t).view.emb (ix3 u r e) = ix3 l n e := by
  obtain ⟨-, -, -, -, -, -, -, -, -, o30, o31, o32, o40, o41, o42, o50, o51, o52⟩ := idx_facts t
  funext a
  apply Fin.ext
  match a with
  | ⟨0, _⟩ => show win0_5.index t (0 : Fin 3) * 1 + 1 * u.val = l.val; have := u.isLt; omega
  | ⟨1, _⟩ => show win0_5.index t (1 : Fin 3) * 512 + 1 * r.val = n.val; omega
  | ⟨2, _⟩ => show win0_5.index t (2 : Fin 3) * 1024 + 1 * e.val = e.val; omega

theorem mem_blk5 (t : Fin cfg0.N) (i : S64x1024x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v3_2).slice (win0_5.rect t)).set ↔ _
  rw [View.set_slice_whole, Rect.mem_set_unit]
  exact Iff.rfl

/-- Every entry of output 5 lies in the block of the point (its head, its half of the rows). -/
theorem cover5 (i : S64x1024x1024.Idx) : ∃ t : Fin cfg0.N, (cfg0.win 5).flush t = true ∧ i ∈ ((cfg0.win 5).blk t).view.set := by
  have h0 : (i 0).val < 64 := (i 0).isLt
  have h1 : (i 1).val < 1024 := (i 1).isLt
  have h2 : (i 2).val < 1024 := (i 2).isLt
  obtain ⟨t, tv⟩ : ∃ t : Fin cfg0.N, t.val = (i 0).val * 2 + (i 1).val / 512 :=
    ⟨⟨(i 0).val * 2 + (i 1).val / 512, lt_of_lt_of_eq (by omega : (i 0).val * 2 + (i 1).val / 512 < 128) N_0.symm⟩, rfl⟩
  obtain ⟨-, -, -, -, -, -, -, -, -, o30, o31, o32, o40, o41, o42, o50, o51, o52⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- Point t's head and first row, as coordinates of the arrays. -/
theorem head_row (t : Fin cfg0.N) (r : Fin 512) :
    ∃ (l : Fin 64) (n : Fin 1024), l.val = t.val / 2 ∧ n.val = t.val % 2 * 512 + r.val := by
  have ht : t.val < 128 := lt_of_lt_of_eq t.isLt N_0
  exact ⟨⟨t.val / 2, by omega⟩, ⟨t.val % 2 * 512 + r.val, by omega⟩, rfl, rfl⟩

/-! ## What each point writes back -/

theorem context_block (c : Dev nD) (t : Fin cfg0.N) (y : S1x512x64.Idx) :
    k0_pay5 (F := Ideal) (iblk m c 0 t) (iblk m c 1 t) (iblk m c 2 t) y
      = context3 (V m c main_v0) (V m c main_v1) (V m c main_v2) (((cfg0.win 3).blk t).view.emb y) := by
  obtain ⟨u, r, d, rfl⟩ : ∃ (u : Fin 1) (r : Fin 512) (d : Fin 64), y = ix3 u r d := ⟨y 0, y 1, y 2, eq_ix3 y⟩
  obtain ⟨l, n, hl, hn⟩ := head_row t r
  refine (pay5_apply (iblk m c 0 t) (iblk m c 1 t) (iblk m c 2 t) u r d).trans ?_
  refine Eq.trans ?_ (congrArg (context3 (V m c main_v0) (V m c main_v1) (V m c main_v2)) (emb3 t u r d l n hl hn).symm)
  show context (qrow (iblk m c 0 t) r) (kmat (iblk m c 1 t)) (kmat (iblk m c 2 t)) d
    = context (row3 (V m c main_v0) l n) (mat3 (V m c main_v1) l) (mat3 (V m c main_v2) l) d
  rw [q_rows m c t r l n hl hn, k_rows m c t l hl, v_rows m c t l hl]

theorem scores_block (c : Dev nD) (t : Fin cfg0.N) (y : S1x512x1024.Idx) :
    k0_pay3 (F := Ideal) (iblk m c 0 t) (iblk m c 1 t) y
      = scores3 (V m c main_v0) (V m c main_v1) (((cfg0.win 4).blk t).view.emb y) := by
  obtain ⟨u, r, e, rfl⟩ : ∃ (u : Fin 1) (r : Fin 512) (e : Fin 1024), y = ix3 u r e := ⟨y 0, y 1, y 2, eq_ix3 y⟩
  obtain ⟨l, n, hl, hn⟩ := head_row t r
  refine (pay3_apply (iblk m c 0 t) (iblk m c 1 t) u r e).trans ?_
  refine Eq.trans ?_ (congrArg (scores3 (V m c main_v0) (V m c main_v1)) (emb4 t u r e l n hl hn).symm)
  show score (qrow (iblk m c 0 t) r) (kmat (iblk m c 1 t)) e = score (row3 (V m c main_v0) l n) (mat3 (V m c main_v1) l) e
  rw [q_rows m c t r l n hl hn, k_rows m c t l hl]

theorem probs_block (c : Dev nD) (t : Fin cfg0.N) (y : S1x512x1024.Idx) :
    k0_pay4 (F := Ideal) (iblk m c 0 t) (iblk m c 1 t) y
      = probs3 (V m c main_v0) (V m c main_v1) (((cfg0.win 5).blk t).view.emb y) := by
  obtain ⟨u, r, e, rfl⟩ : ∃ (u : Fin 1) (r : Fin 512) (e : Fin 1024), y = ix3 u r e := ⟨y 0, y 1, y 2, eq_ix3 y⟩
  obtain ⟨l, n, hl, hn⟩ := head_row t r
  refine (pay4_apply (iblk m c 0 t) (iblk m c 1 t) u r e).trans ?_
  refine Eq.trans ?_ (congrArg (probs3 (V m c main_v0) (V m c main_v1)) (emb5 t u r e l n hl hn).symm)
  show prob (qrow (iblk m c 0 t) r) (kmat (iblk m c 1 t)) e = prob (row3 (V m c main_v0) l n) (mat3 (V m c main_v1) l) e
  rw [q_rows m c t r l n hl hn, k_rows m c t l hl]

/-- Point t writes back block t of the context array of the specification. -/
theorem flushed_context (c : Dev nD) (t : Fin cfg0.N) :
    (dats m 0 c).flushed 3 t
      = ((cfg0.win 3).blk t).view.read (Elt Ideal) (context3 (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x512x64) hz, View.ld_unit_zero (S := S1x1024x64) hz]
  funext j
  exact context_block m c t j

theorem flushed_scores (c : Dev nD) (t : Fin cfg0.N) :
    (dats m 0 c).flushed 4 t
      = ((cfg0.win 4).blk t).view.read (Elt Ideal) (scores3 (V m c main_v0) (V m c main_v1)) := by
  show (cfg0.win 4).cut (grid0.coords t) ((dats m 0 c).after 4 t) = _
  rw [after0_4]
  unfold out0_4
  rw [View.canon_unit_zero hz]
  simp only [View.ld_unit_zero (S := S1x512x64) hz, View.ld_unit_zero (S := S1x1024x64) hz]
  funext j
  exact scores_block m c t j

theorem flushed_probs (c : Dev nD) (t : Fin cfg0.N) :
    (dats m 0 c).flushed 5 t
      = ((cfg0.win 5).blk t).view.read (Elt Ideal) (probs3 (V m c main_v0) (V m c main_v1)) := by
  show (cfg0.win 5).cut (grid0.coords t) ((dats m 0 c).after 5 t) = _
  rw [after0_5]
  unfold out0_5
  rw [View.canon_unit_zero hz]
  simp only [View.ld_unit_zero (S := S1x512x64) hz, View.ld_unit_zero (S := S1x1024x64) hz]
  funext j
  exact probs_block m c t j

/-! ## The arrays after the region -/

theorem final_context (c : Dev nD) :
    (dats m 0 c).arrAt 3 cfg0.N = context3 (V m c main_v0) (V m c main_v1) (V m c main_v2) :=
  (dats m 0 c).arrAt_eq_of_cover 3 _ (fun t _ => flushed_context m c t) cover3

theorem final_scores (c : Dev nD) :
    (dats m 0 c).arrAt 4 cfg0.N = scores3 (V m c main_v0) (V m c main_v1) :=
  (dats m 0 c).arrAt_eq_of_cover 4 _ (fun t _ => flushed_scores m c t) cover4

theorem final_probs (c : Dev nD) :
    (dats m 0 c).arrAt 5 cfg0.N = probs3 (V m c main_v0) (V m c main_v1) :=
  (dats m 0 c).arrAt_eq_of_cover 5 _ (fun t _ => flushed_probs m c t) cover5

end Cert.Attention.Blocks

end
-- ==== Proof.Heads.lean ====
/-
  The 64 heads of the (head, row, column) arrays are the 2·2·16 heads of the (t, b, h, row, column) arrays in row-major
  order: head (t, b, h) is number (t·2 + b)·16 + h. A reshape keeps every entry's row-major position, so reshaping
  between the two layouts only renames the head, and the three attention arrays computed head by head in one layout are
  the ones computed head by head in the other.
-/
import proofs.«147482_j65816078844473_2_alg».proof.Proof.Spec
import Idealize.ShloMosaic.Lib.Pipeline.Value

noncomputable section

namespace Cert.Attention

open Idealize.ShloMosaic Idealize.ShloMosaic.ValueIdx

/-- Head (t, b, h) as one of 64. -/
def head (t : Fin 2) (b : Fin 2) (h : Fin 16) : Fin 64 := ⟨(t.val * 2 + b.val) * 16 + h.val, by omega⟩

/-- A five-axis array reshaped to three axes, read at head (t, b, h): the entry at (t, b, h, n, d). -/
theorem merge_apply {e : ℕ} {α : Type} (x : (⟨5, ![2, 2, 16, 1024, e]⟩ : Shape).Idx → α)
    (hc : (⟨5, ![2, 2, 16, 1024, e]⟩ : Shape).ShapeCasts ⟨3, ![64, 1024, e]⟩)
    (t : Fin 2) (b : Fin 2) (h : Fin 16) (n : Fin 1024) (d : Fin e) :
    shapeCast ⟨3, ![64, 1024, e]⟩ x hc (ix3 (head t b h) n d) = x (ix5 t b h n d) :=
  shapeCast_apply x hc _ _ (by
    rw [Shape.rowMajor_val_five, Shape.rowMajor_val_three]
    show (((t.val * 2 + b.val) * 16 + h.val) * 1024 + n.val) * e + d.val
      = (((t.val * 2 + b.val) * 16 + h.val) * 1024 + n.val) * e + d.val
    rfl)

/-- A three-axis array reshaped to five axes, read at (t, b, h, n, d): the entry of head (t, b, h) at (n, d). -/
theorem split_apply {e : ℕ} {α : Type} (y : (⟨3, ![64, 1024, e]⟩ : Shape).Idx → α)
    (hc : (⟨3, ![64, 1024, e]⟩ : Shape).ShapeCasts ⟨5, ![2, 2, 16, 1024, e]⟩)
    (t : Fin 2) (b : Fin 2) (h : Fin 16) (n : Fin 1024) (d : Fin e) :
    shapeCast ⟨5, ![2, 2, 16, 1024, e]⟩ y hc (ix5 t b h n d) = y (ix3 (head t b h) n d) :=
  shapeCast_apply y hc _ _ (by
    rw [Shape.rowMajor_val_five, Shape.rowMajor_val_three]
    show (((t.val * 2 + b.val) * 16 + h.val) * 1024 + n.val) * e + d.val
      = (((t.val * 2 + b.val) * 16 + h.val) * 1024 + n.val) * e + d.val
    rfl)

section
variable (q k v : (⟨5, ![2, 2, 16, 1024, 64]⟩ : Shape).Idx → EReal)
  (hm : (⟨5, ![2, 2, 16, 1024, 64]⟩ : Shape).ShapeCasts ⟨3, ![64, 1024, 64]⟩)

/-- A row of the reshaped array is the row of the original. -/
theorem row3_merge (x : (⟨5, ![2, 2, 16, 1024, 64]⟩ : Shape).Idx → EReal) (t : Fin 2) (b : Fin 2) (h : Fin 16) (n : Fin 1024) :
    row3 (shapeCast ⟨3, ![64, 1024, 64]⟩ x hm) (head t b h) n = row5 x t b h n :=
  funext fun d => merge_apply x hm t b h n d

/-- A head's matrix of the reshaped array is the head's matrix of the original. -/
theorem mat3_merge (x : (⟨5, ![2, 2, 16, 1024, 64]⟩ : Shape).Idx → EReal) (t : Fin 2) (b : Fin 2) (h : Fin 16) :
    mat3 (shapeCast ⟨3, ![64, 1024, 64]⟩ x hm) (head t b h) = mat5 x t b h :=
  funext fun c => funext fun d => merge_apply x hm t b h c d

/-- The scores computed on the reshaped arrays and reshaped back are the scores of the originals. -/
theorem scores_heads (hs : (⟨3, ![64, 1024, 1024]⟩ : Shape).ShapeCasts ⟨5, ![2, 2, 16, 1024, 1024]⟩) :
    shapeCast ⟨5, ![2, 2, 16, 1024, 1024]⟩
        (scores3 (shapeCast ⟨3, ![64, 1024, 64]⟩ q hm) (shapeCast ⟨3, ![64, 1024, 64]⟩ k hm)) hs
      = scores5 q k := by
  funext i
  obtain ⟨t, b, h, n, c, rfl⟩ : ∃ (t : Fin 2) (b : Fin 2) (h : Fin 16) (n : Fin 1024) (c : Fin 1024), i = ix5 t b h n c :=
    ⟨i 0, i 1, i 2, i 3, i 4, eq_ix5 i⟩
  rw [split_apply]
  show score (row3 _ (head t b h) n) (mat3 _ (head t b h)) c = score (row5 q t b h n) (mat5 k t b h) c
  rw [row3_merge, mat3_merge]

/-- The same for the probabilities. -/
theorem probs_heads (hs : (⟨3, ![64, 1024, 1024]⟩ : Shape).ShapeCasts ⟨5, ![2, 2, 16, 1024, 1024]⟩) :
    shapeCast ⟨5, ![2, 2, 16, 1024, 1024]⟩
        (probs3 (shapeCast ⟨3, ![64, 1024, 64]⟩ q hm) (shapeCast ⟨3, ![64, 1024, 64]⟩ k hm)) hs
      = probs5 q k := by
  funext i
  obtain ⟨t, b, h, n, c, rfl⟩ : ∃ (t : Fin 2) (b : Fin 2) (h : Fin 16) (n : Fin 1024) (c : Fin 1024), i = ix5 t b h n c :=
    ⟨i 0, i 1, i 2, i 3, i 4, eq_ix5 i⟩
  rw [split_apply]
  show prob (row3 _ (head t b h) n) (mat3 _ (head t b h)) c = prob (row5 q t b h n) (mat5 k t b h) c
  rw [row3_merge, mat3_merge]

/-- The same for the context. -/
theorem context_heads (hs : (⟨3, ![64, 1024, 64]⟩ : Shape).ShapeCasts ⟨5, ![2, 2, 16, 1024, 64]⟩) :
    shapeCast ⟨5, ![2, 2, 16, 1024, 64]⟩
        (context3 (shapeCast ⟨3, ![64, 1024, 64]⟩ q hm) (shapeCast ⟨3, ![64, 1024, 64]⟩ k hm)
          (shapeCast ⟨3, ![64, 1024, 64]⟩ v hm)) hs
      = context5 q k v := by
  funext i
  obtain ⟨t, b, h, n, d, rfl⟩ : ∃ (t : Fin 2) (b : Fin 2) (h : Fin 16) (n : Fin 1024) (d : Fin 64), i = ix5 t b h n d :=
    ⟨i 0, i 1, i 2, i 3, i 4, eq_ix5 i⟩
  rw [split_apply]
  show context (row3 _ (head t b h) n) (mat3 _ (head t b h)) (mat3 _ (head t b h)) d
    = context (row5 q t b h n) (mat5 k t b h) (mat5 v t b h) d
  rw [row3_merge, mat3_merge, mat3_merge]

end

end Cert.Attention

end
-- ==== Proof.KernelRun.lean ====
/-
  The kernel program's three results. Before the grid runs, the three inputs are reshaped from (t, b, h, row, column) to
  (head, row, column); after it, the three output arrays are reshaped back. The grid leaves the attention arrays of the
  reshaped inputs in the output arrays, and reshaping only renames the heads, so the three results are the attention
  arrays of the inputs themselves.
-/
import proofs.«147482_j65816078844473_2_alg».proof.Proof.Blocks
import proofs.«147482_j65816078844473_2_alg».proof.Proof.Heads
import Idealize.ShloMosaic.Lib.StableHlo.Run

noncomputable section

namespace Cert.Attention.KernelRun

open Cert.KernelIdeal Cert.KernelIdeal.Gen Cert.Attention Cert.Attention.Blocks
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The inputs as the grid finds them -/

theorem queries_in (c : Dev nD) : (V m c main_v0 : S64x1024x64.Idx → EReal)
    = shapeCast S64x1024x64 (m ((c : Thread nD τ).loc main_arg0)) shapeCasts_S2x2x16x1024x64_S64x1024x64 := by
  show StableHlo.after hostOps0 (fun b => m (c, b)) (Proc.devRef .tc main_v0) = _
  after_results
  rfl

theorem keys_in (c : Dev nD) : (V m c main_v1 : S64x1024x64.Idx → EReal)
    = shapeCast S64x1024x64 (m ((c : Thread nD τ).loc main_arg1)) shapeCasts_S2x2x16x1024x64_S64x1024x64 := by
  show StableHlo.after hostOps0 (fun b => m (c, b)) (Proc.devRef .tc main_v1) = _
  after_results
  rfl

theorem values_in (c : Dev nD) : (V m c main_v2 : S64x1024x64.Idx → EReal)
    = shapeCast S64x1024x64 (m ((c : Thread nD τ).loc main_arg2)) shapeCasts_S2x2x16x1024x64_S64x1024x64 := by
  show StableHlo.after hostOps0 (fun b => m (c, b)) (Proc.devRef .tc main_v2) = _
  after_results
  rfl

/-! ## The results as the lines after the grid leave them -/

theorem tail_context (c : Dev nD) : Pipeline.afterTail₀ cfgs (dats m) 0 (V0 m) [hostOps1] c main_v4
    = shapeCast S2x2x16x1024x64 ((dats m 0 c).arrAt 3 cfg0.N) shapeCasts_S64x1024x64_S2x2x16x1024x64 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3_0)
      = (dats m 0 c).arrAt 3 cfg0.N := Pipeline.withArrays_arr spec0 launch0.win.arr_inj c _ _ 3
  rw [hw]
  rfl

theorem tail_scores (c : Dev nD) : Pipeline.afterTail₀ cfgs (dats m) 0 (V0 m) [hostOps1] c main_v5
    = shapeCast S2x2x16x1024x1024 ((dats m 0 c).arrAt 4 cfg0.N) shapeCasts_S64x1024x1024_S2x2x16x1024x1024 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v3_1)
      = (dats m 0 c).arrAt 4 cfg0.N := Pipeline.withArrays_arr spec0 launch0.win.arr_inj c _ _ 4
  rw [hw]
  rfl

theorem tail_probs (c : Dev nD) : Pipeline.afterTail₀ cfgs (dats m) 0 (V0 m) [hostOps1] c main_v6
    = shapeCast S2x2x16x1024x1024 ((dats m 0 c).arrAt 5 cfg0.N) shapeCasts_S64x1024x1024_S2x2x16x1024x1024 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v3_2)
      = (dats m 0 c).arrAt 5 cfg0.N := Pipeline.withArrays_arr spec0 launch0.win.arr_inj c _ _ 5
  rw [hw]
  rfl

theorem out_context (c : Dev nD) : Pipeline.afterTail₀ cfgs (dats m) 0 (V0 m) [hostOps1] c main_v4
    = context5 (m ((c.tc : Thread nD τ).loc main_arg0)) (m ((c.tc : Thread nD τ).loc main_arg1)) (m ((c.tc : Thread nD τ).loc main_arg2)) := by
  rw [tail_context, final_context, queries_in, keys_in, values_in]
  exact context_heads _ _ _ _ _

theorem out_scores (c : Dev nD) : Pipeline.afterTail₀ cfgs (dats m) 0 (V0 m) [hostOps1] c main_v5
    = scores5 (m ((c.tc : Thread nD τ).loc main_arg0)) (m ((c.tc : Thread nD τ).loc main_arg1)) := by
  rw [tail_scores, final_scores, queries_in, keys_in]
  exact scores_heads _ _ _ _

theorem out_probs (c : Dev nD) : Pipeline.afterTail₀ cfgs (dats m) 0 (V0 m) [hostOps1] c main_v6
    = probs5 (m ((c.tc : Thread nD τ).loc main_arg0)) (m ((c.tc : Thread nD τ).loc main_arg1)) := by
  rw [tail_probs, final_probs, queries_in, keys_in]
  exact probs_heads _ _ _ _

/-- Every weakly fair execution of the kernel program terminates with the three results at the attention arrays of the
    inputs and the inputs unchanged. -/
theorem run : θ_run defs (onTc (τ := τ) (main (F := Ideal))) ⟨m, fun _ => 0, ρ⟩ fun r => ∀ c : Dev nD,
      r.2.mem ((c.tc : Thread nD τ).loc main_v4) = context5 (m ((c.tc : Thread nD τ).loc main_arg0)) (m ((c.tc : Thread nD τ).loc main_arg1)) (m ((c.tc : Thread nD τ).loc main_arg2))
      ∧ r.2.mem ((c.tc : Thread nD τ).loc main_v5) = scores5 (m ((c.tc : Thread nD τ).loc main_arg0)) (m ((c.tc : Thread nD τ).loc main_arg1))
      ∧ r.2.mem ((c.tc : Thread nD τ).loc main_v6) = probs5 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (out_context m c),
      ((h c).2 main_v5 (Pipeline.mem_restRefs_of main_v5 (by decide) (by decide))).trans (out_scores m c),
      ((h c).2 main_v6 (Pipeline.mem_restRefs_of main_v6 (by decide) (by decide))).trans (out_probs m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attention.KernelRun

end
-- ==== Proof.Scale.lean ====
/-
  The two spellings of the scale. The width of a head is 64, so the scale 1/√64 is 1/8: one side multiplies by the float 0.125,
  the other divides by the float 8. Both floats are exact, and on the extended reals dividing by the real 8 is multiplying by
  the real 1/8 at every argument, the infinities included.
-/
import proofs.«147482_j65816078844473_2_alg».proof.Proof.Spec

noncomputable section

namespace Cert.Attention

open Idealize.ShloMosaic

/-- The float word 0x41000000 is 8. -/
theorem word_eight : Ideal.ofBits .f32 0x41000000#32 = ((8 : ℝ) : EReal) := by
  simp [Ideal.ofBits, Ideal.ieee, -EReal.coe_mul]; norm_num

/-- The float word 0x3E000000 is 1/8. -/
theorem word_eighth : Ideal.ofBits .f32 0x3E000000#32 = ((1 / 8 : ℝ) : EReal) := by
  simp [Ideal.ofBits, Ideal.ieee, -EReal.coe_mul]; norm_num

/-- Dividing by 8 is multiplying by 1/8, on every extended real. -/
theorem div_eight (x : EReal) : Ideal.div x (Ideal.ofBits .f32 0x41000000#32) = x * eighth := by
  rw [word_eight, eighth, word_eighth, Ideal.div_coe (by norm_num : (8 : ℝ) ≠ 0)]

/-- The maximum's starting value is below the running maximum, so taking the maximum with it once more changes nothing. -/
theorem max_start_fold (f : Fin 1024 → EReal) :
    max negInf ((Finset.univ : Finset (Fin 1024)).fold max negInf f) = (Finset.univ : Finset (Fin 1024)).fold max negInf f :=
  max_eq_right ((Finset.le_fold_max negInf).mpr (Or.inl le_rfl))

end Cert.Attention

end
-- ==== Proof.RefValue.lean ====
/-
  The reference program computes, at every index, the row functions of the specification: its first matrix product divided
  by 8 is the scaled score; its maximum over the last axis, taken once more against −∞, is the row's maximum; the
  exponential of the difference is the weight; the sum from 0 over the last axis is the row's mass; the quotient is the
  probability; its last matrix product is the context.
-/
import proofs.«147482_j65816078844473_2_alg».proof.Proof.Gen.ReferenceIdeal.Read
import proofs.«147482_j65816078844473_2_alg».proof.Proof.Spec
import proofs.«147482_j65816078844473_2_alg».proof.Proof.Scale
import Idealize.ShloMosaic.PureOps.Reduce

noncomputable section

namespace Cert.Attention.Ref

open Cert.ReferenceIdeal Cert.ReferenceIdeal.Gen Cert.ReferenceIdeal.Read Cert.Attention
open Idealize.ShloMosaic Idealize.ShloMosaic.ValueIdx

variable (x0 x1 x2 : FVec Ideal S2x2x16x1024x64 .f32)

/-- The scaled scores. -/
theorem scores_eq : val_main_v2 (F := Ideal) x0 x1 = scores5 x0 x1 := by
  funext i
  obtain ⟨t, b, h, n, c, rfl⟩ : ∃ (t : Fin 2) (b : Fin 2) (h : Fin 16) (n : Fin 1024) (c : Fin 1024), i = ix5 t b h n c :=
    ⟨i 0, i 1, i 2, i 3, i 4, eq_ix5 i⟩
  have el : ∀ k : Fin 64, lidx_main_v0 (ix5 t b h n c) k = ix5 t b h n k := fun k => funext fun a => by
    match a with | ⟨0, _⟩ => rfl | ⟨1, _⟩ => rfl | ⟨2, _⟩ => rfl | ⟨3, _⟩ => rfl | ⟨4, _⟩ => rfl
  have er : ∀ k : Fin 64, ridx_main_v0 (ix5 t b h n c) k = ix5 t b h c k := fun k => funext fun a => by
    match a with | ⟨0, _⟩ => rfl | ⟨1, _⟩ => rfl | ⟨2, _⟩ => rfl | ⟨3, _⟩ => rfl | ⟨4, _⟩ => rfl
  rw [val_main_v2_apply, val_main_v0_apply, val_main_v1_apply, val_main_cst_apply]
  simp only [el, er, Ideal.hostDivf_def, Ideal.ofBits_def, div_eight]
  rfl

/-- The row maximum, after the extra maximum against −∞. -/
theorem max_eq (t : Fin 2) (b : Fin 2) (h : Fin 16) (n : Fin 1024) :
    val_main_v5 (F := Ideal) x0 x1 (ix4 t b h n) = rowMax (row5 x0 t b h n) (mat5 x1 t b h) := by
  have hR : S2x2x16x1024x1024.Reduces [4] S2x2x16x1024 := by decide
  have hf : (val_main_v2 (F := Ideal) x0 x1 ∘ hR.lift (ix4 t b h n)) = score (row5 x0 t b h n) (mat5 x1 t b h) := by
    funext k
    have e : hR.lift (ix4 t b h n) k = ix5 t b h n k := funext fun a => Fin.ext (by
      match a with | ⟨0, _⟩ => rfl | ⟨1, _⟩ => rfl | ⟨2, _⟩ => rfl | ⟨3, _⟩ => rfl | ⟨4, _⟩ => rfl)
    show val_main_v2 (F := Ideal) x0 x1 (hR.lift (ix4 t b h n) k) = _
    rw [e, scores_eq]
    rfl
  rw [val_main_v5_apply, val_main_v4_apply, val_main_cst_1_apply]
  unfold val_main_v3
  rw [Host.reduce_eq_fold_single FloatOps.maximumf _ _ reducesTo_S2x2x16x1024x1024_S2x2x16x1024_d4 hR h_S_, hf,
    val_main_cst_0_apply]
  exact max_start_fold _

/-- The weights. -/
theorem weight_eq (t : Fin 2) (b : Fin 2) (h : Fin 16) (n : Fin 1024) (c : Fin 1024) :
    val_main_v9 (F := Ideal) x0 x1 (ix5 t b h n c) = weight (row5 x0 t b h n) (mat5 x1 t b h) c := by
  have e : idx_main_v6 (idx_main_v7 (ix5 t b h n c)) = ix4 t b h n := funext fun a => by
    match a with | ⟨0, _⟩ => rfl | ⟨1, _⟩ => rfl | ⟨2, _⟩ => rfl | ⟨3, _⟩ => rfl
  rw [val_main_v9_apply, val_main_v8_apply, val_main_v7_apply, val_main_v6_apply, e, max_eq, scores_eq]
  rfl

/-- The mass: the sum of the weights, from 0. -/
theorem mass_eq (t : Fin 2) (b : Fin 2) (h : Fin 16) (n : Fin 1024) :
    val_main_v10 (F := Ideal) x0 x1 (ix4 t b h n) = mass (row5 x0 t b h n) (mat5 x1 t b h) := by
  have e : ∀ k : Fin 1024, idx_main_v10 (ix4 t b h n) k = ix5 t b h n k := fun k => funext fun a => by
    match a with | ⟨0, _⟩ => rfl | ⟨1, _⟩ => rfl | ⟨2, _⟩ => rfl | ⟨3, _⟩ => rfl | ⟨4, _⟩ => rfl
  rw [val_main_v10_apply, val_main_cst_2_apply]
  simp only [e, weight_eq, Ideal.ofBits_def, Ideal.ofBits_zero_f32, zero_add]
  rfl

/-- The probabilities. -/
theorem probs_eq : val_main_v13 (F := Ideal) x0 x1 = probs5 x0 x1 := by
  funext i
  obtain ⟨t, b, h, n, c, rfl⟩ : ∃ (t : Fin 2) (b : Fin 2) (h : Fin 16) (n : Fin 1024) (c : Fin 1024), i = ix5 t b h n c :=
    ⟨i 0, i 1, i 2, i 3, i 4, eq_ix5 i⟩
  have e : idx_main_v11 (idx_main_v12 (ix5 t b h n c)) = ix4 t b h n := funext fun a => by
    match a with | ⟨0, _⟩ => rfl | ⟨1, _⟩ => rfl | ⟨2, _⟩ => rfl | ⟨3, _⟩ => rfl
  rw [val_main_v13_apply, val_main_v12_apply, val_main_v11_apply, e, mass_eq, weight_eq]
  rfl

/-- The context. -/
theorem context_eq : val_main_v14 (F := Ideal) x0 x1 x2 = context5 x0 x1 x2 := by
  funext i
  obtain ⟨t, b, h, n, d, rfl⟩ : ∃ (t : Fin 2) (b : Fin 2) (h : Fin 16) (n : Fin 1024) (d : Fin 64), i = ix5 t b h n d :=
    ⟨i 0, i 1, i 2, i 3, i 4, eq_ix5 i⟩
  have el : ∀ k : Fin 1024, lidx_main_v14 (ix5 t b h n d) k = ix5 t b h n k := fun k => funext fun a => by
    match a with | ⟨0, _⟩ => rfl | ⟨1, _⟩ => rfl | ⟨2, _⟩ => rfl | ⟨3, _⟩ => rfl | ⟨4, _⟩ => rfl
  have er : ∀ k : Fin 1024, ridx_main_v14 (ix5 t b h n d) k = ix5 t b h k d := fun k => funext fun a => by
    match a with | ⟨0, _⟩ => rfl | ⟨1, _⟩ => rfl | ⟨2, _⟩ => rfl | ⟨3, _⟩ => rfl | ⟨4, _⟩ => rfl
  rw [val_main_v14_apply]
  simp only [el, er, probs_eq]
  rfl

end Cert.Attention.Ref

end
-- ==== Proof.lean ====
/-
  Scaled dot-product attention with a softmax over 2·2·16 heads of 1024 rows of width 64: the kernel against the reference.

  Both programs return, for every head and query row, the scaled scores (Σ_d q·k)·(1/8), their softmax exp(s − max s) / Σ exp(s − max s),
  and the softmax-weighted sum of the value rows. The kernel reshapes the inputs to 64 heads, runs a grid of 128 points
  (a head and one half of its query rows each), and reshapes the three output arrays back; the reference computes the same
  arrays with two batched matrix products and row reductions. On the extended reals the two agree entry by entry:
    • the width is 64, so the scale 1/√64 = 1/8 is exact; the kernel multiplies by the float 0.125, the reference divides by
      the float 8, and dividing by the real 8 is multiplying by the real 1/8 at every extended real;
    • the reference takes the row maximum once more against −∞, the value the maximum was folded from, which changes nothing;
    • both sum the exponentials from 0 and divide entry by entry;
    • the conversions to a shorter float format before the matrix products are the identity on the extended reals, and a
      matrix product into a zero accumulator is the plain sum of products;
    • a reshape keeps row-major positions: head (t, b, h) is head (t·2 + b)·16 + h.
  Nothing in this uses that the inputs are finite. The kernel program's frame is the generated one; the reference's frame
  is its generated run with the results dropped; the idealisation rewrote no operation.
-/
import proofs.«147482_j65816078844473_2_alg».proof.Defs
import proofs.«147482_j65816078844473_2_alg».proof.Proof.Gen.Kernel
import proofs.«147482_j65816078844473_2_alg».proof.Proof.Gen.Kernel.Skeleton
import proofs.«147482_j65816078844473_2_alg».proof.Proof.Gen.Kernel.Launch
import proofs.«147482_j65816078844473_2_alg».proof.Proof.Gen.Kernel.Points
import proofs.«147482_j65816078844473_2_alg».proof.Proof.Gen.Kernel.Frame
import proofs.«147482_j65816078844473_2_alg».proof.Proof.Gen.KernelIdeal
import proofs.«147482_j65816078844473_2_alg».proof.Proof.Gen.KernelIdeal.Skeleton
import proofs.«147482_j65816078844473_2_alg».proof.Proof.Gen.KernelIdeal.Launch
import proofs.«147482_j65816078844473_2_alg».proof.Proof.Gen.KernelIdeal.Points
import proofs.«147482_j65816078844473_2_alg».proof.Proof.Gen.KernelIdeal.Frame
import proofs.«147482_j65816078844473_2_alg».proof.Proof.Gen.ReferenceIdeal
import proofs.«147482_j65816078844473_2_alg».proof.Proof.Gen.Pre_finite_inputs
import proofs.«147482_j65816078844473_2_alg».proof.Proof.Gen.ReferenceIdeal.Run
import proofs.«147482_j65816078844473_2_alg».proof.Proof.Gen.ReferenceIdeal.Read
import proofs.«147482_j65816078844473_2_alg».proof.Proof.KernelRun
import proofs.«147482_j65816078844473_2_alg».proof.Proof.RefValue
import Idealize.ShloMosaic.Adequacy
import Idealize.ShloMosaic.Init

noncomputable section

namespace Cert.Proof

open Idealize.ShloMosaic Idealize.SL.Sem Cert.Attention

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2.2)
    (Cert.ReferenceIdeal.Value.run (F := Ideal) m ρ)

/-- The two programs end with the same context, scores and probabilities: each is the attention array of the
    specification, of inputs that agree. -/
theorem algebraic : Cert.algebraic_KernelIdeal_ReferenceIdeal := by
  intro m ρ m' ρ' _ hagree
  refine ⟨fun c => context5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => scores5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => probs5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.Attention.KernelRun.run m ρ, ?_⟩
  refine (θ_run Cert.ReferenceIdeal.defs _ _).mono (fun _ h c => ?_) (Cert.ReferenceIdeal.Value.run (F := Ideal) m' ρ')
  obtain ⟨h14, h2, h13, ha0, ha1, ha2⟩ := h c
  obtain ⟨e0, e1, e2⟩ := hagree c
  refine ⟨h14.trans ?_, h2.trans ?_, h13.trans ?_, ha0, ha1, ha2⟩
  · rw [Cert.ReferenceIdeal.Read.val_main_v14_eq, Cert.Attention.Ref.context_eq, e0, e1, e2]
  · rw [Cert.ReferenceIdeal.Read.val_main_v2_eq, Cert.Attention.Ref.scores_eq, e0, e1]
  · rw [Cert.ReferenceIdeal.Read.val_main_v13_eq, Cert.Attention.Ref.probs_eq, e0, e1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
